-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S4x8x2048x64 .f32) (main_arg1 : FVec F S4x8x2048x64 .f32) (main_arg2 : FVec F S4x8x2048x64 .f32) (main_arg3 : IVec S4x8x2048x2048 1) (main_arg4 : FVec F S4x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x2048x2048 .f32 := Host.absf main_arg4
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S4x2048x2048, .f32⟩
  | .hbm, ⟨5, _⟩ => ⟨S4x8x2048x64, .bf16⟩
  | .hbm, ⟨6, _⟩ => ⟨S4x8x2048x64, .bf16⟩
  | .hbm, ⟨7, _⟩ => ⟨S4x8x2048x2048, .i32⟩
  | .hbm, ⟨8, _⟩ => ⟨S4x8x2048x64, .f32⟩
  | .hbm, ⟨9, _⟩ => ⟨S4x8x2048x2048, .f32⟩
  | .hbm, ⟨10, _⟩ => ⟨S4x8x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x256x2048, .i32⟩
  | .local _ .vmem, ⟨7, _⟩ => ⟨S1x1x256x2048, .i32⟩
  | .local _ .vmem, ⟨8, _⟩ => ⟨S1x256x2048, .f32⟩
  | .local _ .vmem, ⟨9, _⟩ => ⟨S1x256x2048, .f32⟩
  | .local _ .vmem, ⟨10, _⟩ => ⟨S1x1x256x64, .f32⟩
  | .local _ .vmem, ⟨11, _⟩ => ⟨S1x1x256x64, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | .local _ .vmem, ⟨15, _⟩ => ⟨S1x1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  bitsLt_bf16_f32 : FTy.bits .bf16 < FTy.bits .f32
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x8x2048x64.size a
  hwx0_0 : ∀ i : grid0.Coords, EltTy.bits .f32 = 32 ∨ (Rect.block (s := S4x8x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .bf16 = 32 ∨ (Rect.block (s := S4x8x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .bf16 = 32 ∨ (Rect.block (s := S4x8x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x8x2048x2048.size a
  hwx0_3 : ∀ i : grid0.Coords, EltTy.bits .i32 = 32 ∨ (Rect.block (s := S4x8x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .f32 = 32 ∨ (Rect.block (s := S4x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S4x8x2048x64.size a
  hwx0_5 : ∀ i : grid0.Coords, EltTy.bits .f32 = 32 ∨ (Rect.block (s := S4x8x2048x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x2048.size a ≤ S4x8x2048x2048.size a
  hwx0_6 : ∀ i : grid0.Coords, EltTy.bits .f32 = 32 ∨ (Rect.block (s := S4x8x2048x2048) S1x1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x2048.size a ≤ S4x8x2048x2048.size a
  hwx0_7 : ∀ i : grid0.Coords, EltTy.bits .f32 = 32 ∨ (Rect.block (s := S4x8x2048x2048) S1x1x256x2048.size (cc0_transform_7 i) (hinb0_7 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S1x1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x2048x2048 : Shape := ⟨4, ![4, 8, 2048, 2048]⟩
abbrev S4x2048x2048 : Shape := ⟨3, ![4, 2048, 2048]⟩
abbrev S_ : Shape := ⟨0, ![]⟩
abbrev S4x1x2048x2048 : Shape := ⟨4, ![4, 1, 2048, 2048]⟩
abbrev S4x8x2048 : Shape := ⟨3, ![4, 8, 2048]⟩
abbrev S4x8x2048x1 : Shape := ⟨4, ![4, 8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S4x2048x2048, .f32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x1x2048x2048, .f32⟩
  | .hbm, ⟨10, _⟩ => ⟨S4x8x2048x2048, .f32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S_, .f32⟩
  | .hbm, ⟨16, _⟩ => ⟨S4x8x2048, .f32⟩
  | .hbm, ⟨17, _⟩ => ⟨S_, .f32⟩
  | .hbm, ⟨18, _⟩ => ⟨S4x8x2048, .f32⟩
  | .hbm, ⟨19, _⟩ => ⟨S4x8x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Finite.lean ====
/-
  The precondition `finite_inputs` says of each float input that the absolute value of every entry is below +∞
  (the f32 pattern 0x7F800000 denotes +∞). On the extended reals the absolute value of `a` is `max a (-a)`, which is
  +∞ at +∞ and at −∞ (the junk value is −∞). So an entry whose absolute value is below +∞ is neither infinity nor
  the junk value, hence a real number. The predicate is an `and` of four all-reductions; each all-reduction that is 1
  has a 1 at every index, and a 1 at an index is the comparison `|a| < +∞` at that entry.
-/
import proofs.«100100_j86955907875523_2_alg».proof.Pre_finite_inputs
import proofs.«100100_j86955907875523_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attention

open Idealize.ShloMosaic

/-- The scalar shape has one index. -/
instance subsingleton_S_ : Subsingleton Cert.Pre_finite_inputs.S_.Idx := ⟨fun a b => funext fun d => d.elim0⟩

/-- The f32 pattern `0x7F800000` denotes +∞. -/
theorem ofBits_inf : Ideal.ofBits .f32 0x7F800000#32 = (⊤ : EReal) := by
  simp [Ideal.ofBits, Ideal.ieee]

/-- An extended real whose absolute value `max a (-a)` is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The comparison bit `|a| < +∞` being 1 makes `a` a real number. -/
theorem real_of_bit (a : Ideal .f32)
    (h : FloatOps.cmpf .olt (FloatOps.hostAbsf a) (FloatOps.ofBits (F := Ideal) .f32 0x7F800000#32) = 1#1) :
    ∃ r : ℝ, a = (r : EReal) := by
  apply real_of_abs_lt_top
  have h' : Ideal.cmp .olt (max a (-a)) (Ideal.ofBits .f32 0x7F800000#32) = 1#1 := h
  rw [ofBits_inf] at h'
  unfold Ideal.cmp at h'
  by_contra hn
  simp [hn] at h'

/-- THE PRECONDITION DECODED, all four float inputs: every entry of each is a real number. -/
theorem real_of_pre_all [Cert.Pre_finite_inputs.Facts]
    (x0 x1 x2 : FVec Ideal Cert.Pre_finite_inputs.S4x8x2048x64 .f32) (x3 : IVec Cert.Pre_finite_inputs.S4x8x2048x2048 1)
    (x4 : FVec Ideal Cert.Pre_finite_inputs.S4x2048x2048 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x4 i = (r : EReal)) ∧
      (∀ i, ∃ r : ℝ, x2 i = (r : EReal)) := by
  -- the predicate at its one index: an `and` of the four all-reductions
  have e := congrFun h ValueIdx.ix0
  dsimp only [Cert.Pre_finite_inputs.fn, Cert.Pre_finite_inputs.fn_part1] at e
  obtain ⟨e, h4⟩ := IntOp.andi_eq_one.1 e
  obtain ⟨e, h2⟩ := IntOp.andi_eq_one.1 e
  obtain ⟨h0, h1⟩ := IntOp.andi_eq_one.1 e
  -- an all-reduction that is 1 has a 1 at every index, and that 1 is the comparison `|a| < +∞` there
  exact ⟨fun i => real_of_bit _ (Host.reduce_andi_all _ _ _ _ _ h0 i),
    fun i => real_of_bit _ (Host.reduce_andi_all _ _ _ _ _ h1 i),
    fun i => real_of_bit _ (Host.reduce_andi_all _ _ _ _ _ h4 i),
    fun i => real_of_bit _ (Host.reduce_andi_all _ _ _ _ _ h2 i)⟩

/-- THE PRECONDITION DECODED: every entry of the first, second and fifth inputs is a real number. -/
theorem real_of_pre [Cert.Pre_finite_inputs.Facts]
    (x0 x1 x2 : FVec Ideal Cert.Pre_finite_inputs.S4x8x2048x64 .f32) (x3 : IVec Cert.Pre_finite_inputs.S4x8x2048x2048 1)
    (x4 : FVec Ideal Cert.Pre_finite_inputs.S4x2048x2048 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x4 i = (r : EReal)) :=
  have a := real_of_pre_all x0 x1 x2 x3 x4 h
  ⟨a.1, a.2.1, a.2.2.1⟩

end Cert.Attention

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.Spec.lean ====
/-
  Scaled dot-product attention with an additive bias and a mask, as three functions of the argument arrays.

  For batch `b`, head `h`, query row `r` and key column `c` (2048 rows and columns, head dimension 64):
    score b h r c  = -1e9 where the mask bit is set, else (∑ d, q[b,h,r,d] · k[b,h,c,d]) · (1/8) + e[b,r,c];
    rowmax b h r   = the running maximum over `c` of the scores, started at -∞;
    expo b h r c   = exp (score b h r c - rowmax b h r);      rowsum b h r = ∑ c, expo b h r c;
    attn b h r c   = expo b h r c / rowsum b h r;             ctx b h r d  = ∑ c, attn b h r c · v[b,h,c,d].
  The bias `e` has no head axis: every head of a batch adds the same [2048, 2048] matrix.
  When `q`, `k` and `e` hold real numbers every score is real, so every row sum is positive (`rowsum_pos`): the one
  fact about finiteness the comparison of the two programs needs. `v` may hold anything.
-/
import Idealize.ShloMosaic.PureOps.Ideal
import Idealize.ShloMosaic.Lib.ValueIdx
import proofs.«100100_j86955907875523_2_alg».proof.Proof.LibSoftmaxRow

noncomputable section

namespace Cert.Attention

open Idealize.ShloMosaic Idealize.ShloMosaic.ValueIdx Cert.Lib.SoftmaxRow

/-! ## The float patterns the two programs spell -/

/-- `0.125`, the softmax scale `1/√64`. -/
theorem ofBits_eighth : Ideal.ofBits .f32 0x3E000000#32 = ((1 / 8 : ℝ) : EReal) := by
  simp [Ideal.ofBits, Ideal.ieee, -EReal.coe_mul]; norm_num

/-- `-1e9`, the value a masked score is replaced by, is a real number. -/
theorem ofBits_neg_big : Ideal.ofBits .f32 0xCE6E6B28#32 = ((-1000000000 : ℝ) : EReal) := by
  simp [Ideal.ofBits, Ideal.ieee, -EReal.coe_mul]; norm_num

/-- The pattern of `-∞`, from which both programs start a row's maximum. -/
theorem ofBits_neg_inf : Ideal.ofBits .f32 0xFF800000#32 = ⊥ := by
  simp [Ideal.ofBits, Ideal.ieee]

/-- `1.0`, the numerator of the kernel's reciprocal of a row sum. -/
theorem ofBits_one : Ideal.ofBits .f32 0x3F800000#32 = 1 := by
  simp [Ideal.ofBits, Ideal.ieee, -EReal.coe_mul]; norm_num

theorem eighth_nonneg : (0 : EReal) ≤ Ideal.ofBits .f32 0x3E000000#32 := by
  rw [ofBits_eighth]; exact EReal.coe_nonneg.2 (by norm_num)

theorem eighth_ne_top : Ideal.ofBits .f32 0x3E000000#32 ≠ ⊤ := by
  rw [ofBits_eighth]; exact EReal.coe_ne_top _

/-! ## The three results -/

abbrev SQ : Shape := ⟨4, ![4, 8, 2048, 64]⟩
abbrev SS : Shape := ⟨4, ![4, 8, 2048, 2048]⟩
abbrev SE : Shape := ⟨3, ![4, 2048, 2048]⟩

/-- Row `r` of the `qi`-th tile of 256 query rows is row `qi · 256 + r` of the array. -/
def grow (qi : Fin 8) (r : Fin 256) : Fin 2048 := ⟨qi.val * 256 + r.val, by have := qi.isLt; have := r.isLt; omega⟩

variable (q k v : SQ.Idx → EReal) (msk : SS.Idx → BitVec 1) (e : SE.Idx → EReal)

def score (b : Fin 4) (h : Fin 8) (r c : Fin 2048) : EReal :=
  Scalar.select (msk (ix4 b h r c)) (Ideal.ofBits .f32 0xCE6E6B28#32)
    ((∑ d : Fin 64, q (ix4 b h r d) * k (ix4 b h c d)) * Ideal.ofBits .f32 0x3E000000#32 + e (ix3 b r c))

def rowmax (b : Fin 4) (h : Fin 8) (r : Fin 2048) : EReal :=
  (Finset.univ : Finset (Fin 2048)).fold max (Ideal.ofBits .f32 0xFF800000#32) (fun c => score q k msk e b h r c)

def expo (b : Fin 4) (h : Fin 8) (r c : Fin 2048) : EReal :=
  Ideal.exp (score q k msk e b h r c - rowmax q k msk e b h r)

def rowsum (b : Fin 4) (h : Fin 8) (r : Fin 2048) : EReal := ∑ c : Fin 2048, expo q k msk e b h r c

def attn (b : Fin 4) (h : Fin 8) (r c : Fin 2048) : EReal :=
  Ideal.div (expo q k msk e b h r c) (rowsum q k msk e b h r)

def ctx (b : Fin 4) (h : Fin 8) (r : Fin 2048) (d : Fin 64) : EReal :=
  ∑ c : Fin 2048, attn q k msk e b h r c * v (ix4 b h c d)

/-- The three result arrays. -/
def scoresArr : SS.Idx → EReal := fun i => score q k msk e (i 0) (i 1) (i 2) (i 3)
def attnArr : SS.Idx → EReal := fun i => attn q k msk e (i 0) (i 1) (i 2) (i 3)
def ctxArr : SQ.Idx → EReal := fun i => ctx q k v msk e (i 0) (i 1) (i 2) (i 3)

/-! ## Finite inputs: real scores, positive row sums -/

/-- A finite sum of real numbers is a real number. -/
theorem sum_real {ι : Type*} (t : Finset ι) (a : ι → EReal) (ha : ∀ i, ∃ r : ℝ, a i = r) : ∃ r : ℝ, ∑ i ∈ t, a i = r := by
  classical
  induction t using Finset.induction_on with
  | empty => exact ⟨0, by simp⟩
  | insert i t hi ih =>
    obtain ⟨x, hx⟩ := ha i
    obtain ⟨y, hy⟩ := ih
    exact ⟨x + y, by rw [Finset.sum_insert hi, hx, hy, EReal.coe_add]⟩

variable {q k e}

theorem score_real (hq : ∀ i, ∃ r : ℝ, q i = r) (hk : ∀ i, ∃ r : ℝ, k i = r) (he : ∀ i, ∃ r : ℝ, e i = r)
    (b : Fin 4) (h : Fin 8) (r c : Fin 2048) : ∃ x : ℝ, score q k msk e b h r c = x := by
  unfold score Scalar.select
  split
  · exact ⟨_, ofBits_neg_big⟩
  · obtain ⟨x, hx⟩ := sum_real Finset.univ (fun d : Fin 64 => q (ix4 b h r d) * k (ix4 b h c d)) (fun d => by
      obtain ⟨x, hx⟩ := hq (ix4 b h r d)
      obtain ⟨y, hy⟩ := hk (ix4 b h c d)
      exact ⟨x * y, by rw [hx, hy, EReal.coe_mul]⟩)
    obtain ⟨y, hy⟩ := he (ix3 b r c)
    exact ⟨x * (1 / 8) + y, by rw [hx, hy, ofBits_eighth, ← EReal.coe_mul, ← EReal.coe_add]⟩

theorem rowmax_ne_top (hq : ∀ i, ∃ r : ℝ, q i = r) (hk : ∀ i, ∃ r : ℝ, k i = r) (he : ∀ i, ∃ r : ℝ, e i = r)
    (b : Fin 4) (h : Fin 8) (r : Fin 2048) : rowmax q k msk e b h r ≠ ⊤ := by
  unfold rowmax
  refine fold_max_ne_top (by rw [ofBits_neg_inf]; exact bot_ne_top) _ fun c => ?_
  obtain ⟨x, hx⟩ := score_real msk hq hk he b h r c
  rw [hx]; exact EReal.coe_ne_top _

/-- Every row sum is positive when `q`, `k` and `e` hold real numbers. -/
theorem rowsum_pos (hq : ∀ i, ∃ r : ℝ, q i = r) (hk : ∀ i, ∃ r : ℝ, k i = r) (he : ∀ i, ∃ r : ℝ, e i = r)
    (b : Fin 4) (h : Fin 8) (r : Fin 2048) : 0 < rowsum q k msk e b h r :=
  Cert.Lib.SoftmaxRow.rowsum_pos (fun c => score q k msk e b h r c) _ (by decide)
    (fun c => score_real msk hq hk he b h r c) (rowmax_ne_top msk hq hk he b h r)

end Cert.Attention

end
-- ==== Proof.RefValue.lean ====
/-
  The reference computes the three functions of Spec.lean.

  Its program is read one operation at a time (the generated read-at-an-index lemmas): the batched product of `q` with
  `k` over the head dimension, times 1/8, plus the bias broadcast over heads, the mask's select; a row maximum (the one
  reduction read here by hand, as a running maximum over the last axis, followed by a maximum with -∞, which changes
  nothing); the exponential of the difference; the row sum from zero; the quotient; and the batched product with `v`
  over the key axis. Each stage is read at coordinates (batch, head, row, column), then stated for the whole array.
-/
import proofs.«100100_j86955907875523_2_alg».proof.Proof.Gen.ReferenceIdeal.Read
import proofs.«100100_j86955907875523_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attention

variable (x0 x1 x2 : (⟨S4x8x2048x64, .f32⟩ : BufTy).Contents (Elt Ideal))
  (x3 : (⟨S4x8x2048x2048, .i1⟩ : BufTy).Contents (Elt Ideal)) (x4 : (⟨S4x2048x2048, .f32⟩ : BufTy).Contents (Elt Ideal))

/-- The masked, biased, scaled score at (b, h, r, c). -/
theorem scores_at (b : Fin 4) (h : Fin 8) (r c : Fin 2048) :
    val_main_v6 (F := Ideal) x0 x1 x3 x4 (ix4 b h r c) = score x0 x1 x3 x4 b h r c := by
  rw [val_main_v6_apply, val_main_call0_v0_apply, val_main_cst_0_apply, val_main_v5_apply, val_main_v2_apply,
    val_main_v0_apply, val_main_v1_apply, val_main_cst_apply, val_main_v4_apply, val_main_v3_apply]
  have el : ∀ d : Fin 64, lidx_main_v0 (ix4 b h r c) d = ix4 b h r d := fun d => funext fun a => Fin.ext (by
    match a with | ⟨0, _⟩ => rfl | ⟨1, _⟩ => rfl | ⟨2, _⟩ => rfl | ⟨3, _⟩ => rfl)
  have er : ∀ d : Fin 64, ridx_main_v0 (ix4 b h r c) d = ix4 b h c d := fun d => funext fun a => Fin.ext (by
    match a with | ⟨0, _⟩ => rfl | ⟨1, _⟩ => rfl | ⟨2, _⟩ => rfl | ⟨3, _⟩ => rfl)
  have ee : idx_main_v3 (idx_main_v4 (ix4 b h r c)) = ix3 b r c := funext fun a => Fin.ext (by
    match a with | ⟨0, _⟩ => rfl | ⟨1, _⟩ => rfl | ⟨2, _⟩ => rfl)
  simp only [el, er, ee]
  rfl

theorem scores_eq : val_main_v6 (F := Ideal) x0 x1 x3 x4 = scoresArr x0 x1 x3 x4 := by
  funext i
  obtain ⟨b, h, r, c, rfl⟩ : ∃ (b : Fin 4) (h : Fin 8) (r c : Fin 2048), i = ix4 b h r c := ⟨i 0, i 1, i 2, i 3, eq_ix4 i⟩
  exact scores_at x0 x1 x3 x4 b h r c

/-- The index of the reduced array with the key column put back on the last axis. -/
theorem lift_eq (hr : S4x8x2048x2048.Reduces [3] S4x8x2048) (b : Fin 4) (h : Fin 8) (r : Fin 2048)
    (c : Fin (S4x8x2048x2048.size 3)) : hr.lift (ix3 b h r) c = ix4 b h r (⟨c.val, c.isLt⟩ : Fin 2048) := by
  funext a; apply Fin.ext
  match a with | ⟨0, _⟩ => rfl | ⟨1, _⟩ => rfl | ⟨2, _⟩ => rfl | ⟨3, _⟩ => rfl

/-- The row maximum: the reduction is the running maximum over the key axis from -∞, and the further maximum with
    -∞ leaves it as it is. -/
theorem rowmax_at (b : Fin 4) (h : Fin 8) (r : Fin 2048) :
    val_main_v9 (F := Ideal) x0 x1 x3 x4 (ix3 b h r) = rowmax x0 x1 x3 x4 b h r := by
  rw [val_main_v9_apply, val_main_v8_apply, val_main_cst_2_apply]
  unfold val_main_v7
  rw [Host.reduce_eq_fold_single FloatOps.maximumf _ _ reducesTo_S4x8x2048x2048_S4x8x2048_d3 (by decide) h_S_ (ix3 b h r)]
  show max (Ideal.ofBits .f32 0xFF800000#32) _ = _
  rw [ofBits_neg_inf, max_eq_right bot_le]
  unfold rowmax
  rw [ofBits_neg_inf]
  refine congrArg (fun f => Finset.fold max (⊥ : EReal) f (Finset.univ : Finset (Fin 2048))) (funext fun c => ?_)
  show val_main_v6 (F := Ideal) x0 x1 x3 x4 (_) = _
  rw [lift_eq]
  exact scores_at x0 x1 x3 x4 b h r c

/-- The exponential of a score less its row's maximum. -/
theorem expo_at (b : Fin 4) (h : Fin 8) (r c : Fin 2048) :
    val_main_v13 (F := Ideal) x0 x1 x3 x4 (ix4 b h r c) = expo x0 x1 x3 x4 b h r c := by
  rw [val_main_v13_apply, val_main_v12_apply, val_main_v11_apply, val_main_v10_apply, scores_at]
  have e : idx_main_v10 (idx_main_v11 (ix4 b h r c)) = ix3 b h r := funext fun a => Fin.ext (by
    match a with | ⟨0, _⟩ => rfl | ⟨1, _⟩ => rfl | ⟨2, _⟩ => rfl)
  rw [e, rowmax_at]
  rfl

/-- The row sum, from zero. -/
theorem rowsum_at (b : Fin 4) (h : Fin 8) (r : Fin 2048) :
    val_main_v14 (F := Ideal) x0 x1 x3 x4 (ix3 b h r) = rowsum x0 x1 x3 x4 b h r := by
  rw [val_main_v14_apply, val_main_cst_3_apply]
  show Ideal.ofBits .f32 0x00000000#32 + _ = _
  rw [Ideal.ofBits_zero_f32, zero_add]
  unfold rowsum
  refine Finset.sum_congr rfl fun c _ => ?_
  have e : idx_main_v14 (ix3 b h r) c = ix4 b h r c := funext fun a => Fin.ext (by
    match a with | ⟨0, _⟩ => rfl | ⟨1, _⟩ => rfl | ⟨2, _⟩ => rfl | ⟨3, _⟩ => rfl)
  rw [e]
  exact expo_at x0 x1 x3 x4 b h r c

/-- The normalised weight. -/
theorem attn_at (b : Fin 4) (h : Fin 8) (r c : Fin 2048) :
    val_main_v17 (F := Ideal) x0 x1 x3 x4 (ix4 b h r c) = attn x0 x1 x3 x4 b h r c := by
  rw [val_main_v17_apply, val_main_v16_apply, val_main_v15_apply, expo_at]
  have e : idx_main_v15 (idx_main_v16 (ix4 b h r c)) = ix3 b h r := funext fun a => Fin.ext (by
    match a with | ⟨0, _⟩ => rfl | ⟨1, _⟩ => rfl | ⟨2, _⟩ => rfl)
  rw [e, rowsum_at]
  rfl

theorem attn_eq : val_main_v17 (F := Ideal) x0 x1 x3 x4 = attnArr x0 x1 x3 x4 := by
  funext i
  obtain ⟨b, h, r, c, rfl⟩ : ∃ (b : Fin 4) (h : Fin 8) (r c : Fin 2048), i = ix4 b h r c := ⟨i 0, i 1, i 2, i 3, eq_ix4 i⟩
  exact attn_at x0 x1 x3 x4 b h r c

/-- The weighted sum of the value rows. -/
theorem ctx_eq : val_main_v18 (F := Ideal) x0 x1 x2 x3 x4 = ctxArr x0 x1 x2 x3 x4 := by
  funext i
  obtain ⟨b, h, r, d, rfl⟩ : ∃ (b : Fin 4) (h : Fin 8) (r : Fin 2048) (d : Fin 64), i = ix4 b h r d := ⟨i 0, i 1, i 2, i 3, eq_ix4 i⟩
  rw [val_main_v18_apply]
  show _ = ctx x0 x1 x2 x3 x4 b h r d
  unfold ctx
  refine Finset.sum_congr rfl fun c _ => ?_
  have el : lidx_main_v18 (ix4 b h r d) c = ix4 b h r c := funext fun a => Fin.ext (by
    match a with | ⟨0, _⟩ => rfl | ⟨1, _⟩ => rfl | ⟨2, _⟩ => rfl | ⟨3, _⟩ => rfl)
  have er : ridx_main_v18 (ix4 b h r d) c = ix4 b h c d := funext fun a => Fin.ext (by
    match a with | ⟨0, _⟩ => rfl | ⟨1, _⟩ => rfl | ⟨2, _⟩ => rfl | ⟨3, _⟩ => rfl)
  rw [el, er, attn_at]

end Cert.ReferenceIdeal.RefValue

end
-- ==== Proof.Geometry.lean ====
/-
  The geometry of the attention kernel's pipeline.

  The grid has 4 · 8 · 8 points; point t has a batch b, a tile qi of 256 query rows and a head h. At that point the
  query window, the mask window and the three output windows hold block (b, h, qi, 0) of their arrays, the key and value
  windows hold block (b, h, 0, 0), and the bias window, which has no head axis, holds block (b, qi, 0). A block's element
  sits in its array at block index × block size + the coordinate inside the block, axis by axis (the "emb" lemmas). Every
  point writes its three output blocks back, and those blocks cover their arrays (the "cover" lemmas). Before the grid runs,
  three elementwise conversions prepare the key, value and mask arrays; over the extended reals the two roundings are the
  identity and the mask bit is zero-extended to 32 bits (the "V_main_v" lemmas).
-/
import proofs.«100100_j86955907875523_2_alg».proof.Proof.Gen.KernelIdeal.Value
import proofs.«100100_j86955907875523_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Geometry

open Cert.KernelIdeal Cert.KernelIdeal.Gen Idealize.ShloMosaic Idealize.ShloMosaic.TcCoe Idealize.ShloMosaic.ValueIdx Idealize.SL.Sem
open Cert.Attention (grow)

/-! ## The point's batch, tile of query rows and head -/

/-- The batch of grid point `t`. -/
def pb (t : Fin cfg0.N) : Fin 4 := ⟨(grid0.coords t 0).val, (grid0.coords t 0).isLt⟩
/-- The tile of 256 query rows of grid point `t`. -/
def pq (t : Fin cfg0.N) : Fin 8 := ⟨(grid0.coords t 1).val, (grid0.coords t 1).isLt⟩
/-- The head of grid point `t`. -/
def ph (t : Fin cfg0.N) : Fin 8 := ⟨(grid0.coords t 2).val, (grid0.coords t 2).isLt⟩

/-! ## The block index of each window at a point, decided over the 256 points -/

/-- The query window holds block (batch, head, row tile, 0). -/
theorem blockIndex0 : ∀ t : Fin cfg0.N, win0_0.index t (0 : Fin 4) = (grid0.coords t 0).val
    ∧ win0_0.index t (1 : Fin 4) = (grid0.coords t 2).val
    ∧ win0_0.index t (2 : Fin 4) = (grid0.coords t 1).val
    ∧ win0_0.index t (3 : Fin 4) = 0 :=
  (by decide +kernel : ∀ t : Fin grid0.N, _)

/-- The key window holds block (batch, head, 0, 0): all 2048 key rows. -/
theorem blockIndex1 : ∀ t : Fin cfg0.N, win0_1.index t (0 : Fin 4) = (grid0.coords t 0).val
    ∧ win0_1.index t (1 : Fin 4) = (grid0.coords t 2).val
    ∧ win0_1.index t (2 : Fin 4) = 0
    ∧ win0_1.index t (3 : Fin 4) = 0 :=
  (by decide +kernel : ∀ t : Fin grid0.N, _)

/-- The value window holds block (batch, head, 0, 0): all 2048 value rows. -/
theorem blockIndex2 : ∀ t : Fin cfg0.N, win0_2.index t (0 : Fin 4) = (grid0.coords t 0).val
    ∧ win0_2.index t (1 : Fin 4) = (grid0.coords t 2).val
    ∧ win0_2.index t (2 : Fin 4) = 0
    ∧ win0_2.index t (3 : Fin 4) = 0 :=
  (by decide +kernel : ∀ t : Fin grid0.N, _)

/-- The mask window holds block (batch, head, row tile, 0). -/
theorem blockIndex3 : ∀ t : Fin cfg0.N, win0_3.index t (0 : Fin 4) = (grid0.coords t 0).val
    ∧ win0_3.index t (1 : Fin 4) = (grid0.coords t 2).val
    ∧ win0_3.index t (2 : Fin 4) = (grid0.coords t 1).val
    ∧ win0_3.index t (3 : Fin 4) = 0 :=
  (by decide +kernel : ∀ t : Fin grid0.N, _)

/-- The bias window, whose array has no head axis, holds block (batch, row tile, 0). -/
theorem blockIndex4 : ∀ t : Fin cfg0.N, win0_4.index t (0 : Fin 3) = (grid0.coords t 0).val
    ∧ win0_4.index t (1 : Fin 3) = (grid0.coords t 1).val
    ∧ win0_4.index t (2 : Fin 3) = 0 :=
  (by decide +kernel : ∀ t : Fin grid0.N, _)

/-- The context output's window holds block (batch, head, row tile, 0). -/
theorem blockIndex5 : ∀ t : Fin cfg0.N, win0_5.index t (0 : Fin 4) = (grid0.coords t 0).val
    ∧ win0_5.index t (1 : Fin 4) = (grid0.coords t 2).val
    ∧ win0_5.index t (2 : Fin 4) = (grid0.coords t 1).val
    ∧ win0_5.index t (3 : Fin 4) = 0 :=
  (by decide +kernel : ∀ t : Fin grid0.N, _)

/-- The attention-weights output's window holds block (batch, head, row tile, 0). -/
theorem blockIndex6 : ∀ t : Fin cfg0.N, win0_6.index t (0 : Fin 4) = (grid0.coords t 0).val
    ∧ win0_6.index t (1 : Fin 4) = (grid0.coords t 2).val
    ∧ win0_6.index t (2 : Fin 4) = (grid0.coords t 1).val
    ∧ win0_6.index t (3 : Fin 4) = 0 :=
  (by decide +kernel : ∀ t : Fin grid0.N, _)

/-- The scores output's window holds block (batch, head, row tile, 0). -/
theorem blockIndex7 : ∀ t : Fin cfg0.N, win0_7.index t (0 : Fin 4) = (grid0.coords t 0).val
    ∧ win0_7.index t (1 : Fin 4) = (grid0.coords t 2).val
    ∧ win0_7.index t (2 : Fin 4) = (grid0.coords t 1).val
    ∧ win0_7.index t (3 : Fin 4) = 0 :=
  (by decide +kernel : ∀ t : Fin grid0.N, _)

/-! ## Where a block's element sits in its array

On each axis the array coordinate is block index × block size + 1 × the coordinate inside the block. -/

/-- Query block: element (0, 0, r, d) is element (b, h, qi·256 + r, d) of the query array. -/
theorem emb0 (t : Fin cfg0.N) (r : Fin 256) (d : Fin 64) :
    ((cfg0.win 0).blk t).view.emb (ix4 (0 : Fin 1) (0 : Fin 1) r d) = (ix4 (pb t) (ph t) (grow (pq t) r) d : S4x8x2048x64.Idx) := by
  obtain ⟨e0, e1, e2, e3⟩ := blockIndex0 t
  funext a; apply Fin.ext
  match a with
  | ⟨0, _⟩ => show win0_0.index t (0 : Fin 4) * 1 + 1 * 0 = (grid0.coords t 0).val; omega
  | ⟨1, _⟩ => show win0_0.index t (1 : Fin 4) * 1 + 1 * 0 = (grid0.coords t 2).val; omega
  | ⟨2, _⟩ => show win0_0.index t (2 : Fin 4) * 256 + 1 * r.val = (grid0.coords t 1).val * 256 + r.val; omega
  | ⟨3, _⟩ => show win0_0.index t (3 : Fin 4) * 64 + 1 * d.val = d.val; omega

/-- Key block: element (0, 0, c, d) is element (b, h, c, d) of the key array. -/
theorem emb1 (t : Fin cfg0.N) (c : Fin 2048) (d : Fin 64) :
    ((cfg0.win 1).blk t).view.emb (ix4 (0 : Fin 1) (0 : Fin 1) c d) = (ix4 (pb t) (ph t) c d : S4x8x2048x64.Idx) := by
  obtain ⟨e0, e1, e2, e3⟩ := blockIndex1 t
  funext a; apply Fin.ext
  match a with
  | ⟨0, _⟩ => show win0_1.index t (0 : Fin 4) * 1 + 1 * 0 = (grid0.coords t 0).val; omega
  | ⟨1, _⟩ => show win0_1.index t (1 : Fin 4) * 1 + 1 * 0 = (grid0.coords t 2).val; omega
  | ⟨2, _⟩ => show win0_1.index t (2 : Fin 4) * 2048 + 1 * c.val = c.val; omega
  | ⟨3, _⟩ => show win0_1.index t (3 : Fin 4) * 64 + 1 * d.val = d.val; omega

/-- Value block: element (0, 0, c, d) is element (b, h, c, d) of the value array. -/
theorem emb2 (t : Fin cfg0.N) (c : Fin 2048) (d : Fin 64) :
    ((cfg0.win 2).blk t).view.emb (ix4 (0 : Fin 1) (0 : Fin 1) c d) = (ix4 (pb t) (ph t) c d : S4x8x2048x64.Idx) := by
  obtain ⟨e0, e1, e2, e3⟩ := blockIndex2 t
  funext a; apply Fin.ext
  match a with
  | ⟨0, _⟩ => show win0_2.index t (0 : Fin 4) * 1 + 1 * 0 = (grid0.coords t 0).val; omega
  | ⟨1, _⟩ => show win0_2.index t (1 : Fin 4) * 1 + 1 * 0 = (grid0.coords t 2).val; omega
  | ⟨2, _⟩ => show win0_2.index t (2 : Fin 4) * 2048 + 1 * c.val = c.val; omega
  | ⟨3, _⟩ => show win0_2.index t (3 : Fin 4) * 64 + 1 * d.val = d.val; omega

/-- Mask block: element (0, 0, r, c) is element (b, h, qi·256 + r, c) of the mask array. -/
theorem emb3 (t : Fin cfg0.N) (r : Fin 256) (c : Fin 2048) :
    ((cfg0.win 3).blk t).view.emb (ix4 (0 : Fin 1) (0 : Fin 1) r c) = (ix4 (pb t) (ph t) (grow (pq t) r) c : S4x8x2048x2048.Idx) := by
  obtain ⟨e0, e1, e2, e3⟩ := blockIndex3 t
  funext a; apply Fin.ext
  match a with
  | ⟨0, _⟩ => show win0_3.index t (0 : Fin 4) * 1 + 1 * 0 = (grid0.coords t 0).val; omega
  | ⟨1, _⟩ => show win0_3.index t (1 : Fin 4) * 1 + 1 * 0 = (grid0.coords t 2).val; omega
  | ⟨2, _⟩ => show win0_3.index t (2 : Fin 4) * 256 + 1 * r.val = (grid0.coords t 1).val * 256 + r.val; omega
  | ⟨3, _⟩ => show win0_3.index t (3 : Fin 4) * 2048 + 1 * c.val = c.val; omega

/-- Bias block: element (0, r, c) is element (b, qi·256 + r, c) of the bias array, whatever the head. -/
theorem emb4 (t : Fin cfg0.N) (r : Fin 256) (c : Fin 2048) :
    ((cfg0.win 4).blk t).view.emb (ix3 (0 : Fin 1) r c) = (ix3 (pb t) (grow (pq t) r) c : S4x2048x2048.Idx) := by
  obtain ⟨e0, e1, e2⟩ := blockIndex4 t
  funext a; apply Fin.ext
  match a with
  | ⟨0, _⟩ => show win0_4.index t (0 : Fin 3) * 1 + 1 * 0 = (grid0.coords t 0).val; omega
  | ⟨1, _⟩ => show win0_4.index t (1 : Fin 3) * 256 + 1 * r.val = (grid0.coords t 1).val * 256 + r.val; omega
  | ⟨2, _⟩ => show win0_4.index t (2 : Fin 3) * 2048 + 1 * c.val = c.val; omega

/-- Context output block: element (0, 0, r, d) is element (b, h, qi·256 + r, d) of the context array. -/
theorem emb5 (t : Fin cfg0.N) (r : Fin 256) (d : Fin 64) :
    ((cfg0.win 5).blk t).view.emb (ix4 (0 : Fin 1) (0 : Fin 1) r d) = (ix4 (pb t) (ph t) (grow (pq t) r) d : S4x8x2048x64.Idx) := by
  obtain ⟨e0, e1, e2, e3⟩ := blockIndex5 t
  funext a; apply Fin.ext
  match a with
  | ⟨0, _⟩ => show win0_5.index t (0 : Fin 4) * 1 + 1 * 0 = (grid0.coords t 0).val; omega
  | ⟨1, _⟩ => show win0_5.index t (1 : Fin 4) * 1 + 1 * 0 = (grid0.coords t 2).val; omega
  | ⟨2, _⟩ => show win0_5.index t (2 : Fin 4) * 256 + 1 * r.val = (grid0.coords t 1).val * 256 + r.val; omega
  | ⟨3, _⟩ => show win0_5.index t (3 : Fin 4) * 64 + 1 * d.val = d.val; omega

/-- Attention-weights output block: element (0, 0, r, c) is element (b, h, qi·256 + r, c) of its array. -/
theorem emb6 (t : Fin cfg0.N) (r : Fin 256) (c : Fin 2048) :
    ((cfg0.win 6).blk t).view.emb (ix4 (0 : Fin 1) (0 : Fin 1) r c) = (ix4 (pb t) (ph t) (grow (pq t) r) c : S4x8x2048x2048.Idx) := by
  obtain ⟨e0, e1, e2, e3⟩ := blockIndex6 t
  funext a; apply Fin.ext
  match a with
  | ⟨0, _⟩ => show win0_6.index t (0 : Fin 4) * 1 + 1 * 0 = (grid0.coords t 0).val; omega
  | ⟨1, _⟩ => show win0_6.index t (1 : Fin 4) * 1 + 1 * 0 = (grid0.coords t 2).val; omega
  | ⟨2, _⟩ => show win0_6.index t (2 : Fin 4) * 256 + 1 * r.val = (grid0.coords t 1).val * 256 + r.val; omega
  | ⟨3, _⟩ => show win0_6.index t (3 : Fin 4) * 2048 + 1 * c.val = c.val; omega

/-- Scores output block: element (0, 0, r, c) is element (b, h, qi·256 + r, c) of its array. -/
theorem emb7 (t : Fin cfg0.N) (r : Fin 256) (c : Fin 2048) :
    ((cfg0.win 7).blk t).view.emb (ix4 (0 : Fin 1) (0 : Fin 1) r c) = (ix4 (pb t) (ph t) (grow (pq t) r) c : S4x8x2048x2048.Idx) := by
  obtain ⟨e0, e1, e2, e3⟩ := blockIndex7 t
  funext a; apply Fin.ext
  match a with
  | ⟨0, _⟩ => show win0_7.index t (0 : Fin 4) * 1 + 1 * 0 = (grid0.coords t 0).val; omega
  | ⟨1, _⟩ => show win0_7.index t (1 : Fin 4) * 1 + 1 * 0 = (grid0.coords t 2).val; omega
  | ⟨2, _⟩ => show win0_7.index t (2 : Fin 4) * 256 + 1 * r.val = (grid0.coords t 1).val * 256 + r.val; omega
  | ⟨3, _⟩ => show win0_7.index t (3 : Fin 4) * 2048 + 1 * c.val = c.val; omega

/-! ## What the three conversions before the grid leave

Over the extended reals a change of float format is the identity, so the key and value arrays the windows read are the
arguments themselves; the mask array is the one-bit mask argument zero-extended to 32 bits, entry by entry. -/

/-- The key array the kernel reads is the key argument. -/
theorem V_main_v0 (m : (ℓ : Loc nD τ sig) → Buf (Elt Ideal) ℓ) (c : Dev nD) :
    (V (F := Ideal) m c main_v0 : S4x8x2048x64.Idx → EReal) = (m ((c : Thread nD τ).loc main_arg1) : S4x8x2048x64.Idx → EReal) := by
  have e : @Eq (S4x8x2048x64.Idx → EReal) (V (F := Ideal) m c main_v0)
      (truncf (F := Ideal) .bf16 (m ((c : Thread nD τ).loc main_arg1)) bitsLt_bf16_f32) := by
    dsimp only [Gen.V, Gen.hostOps0]; after_results; all_goals rfl
  exact e.trans (funext fun i => truncf_apply _ _ i)

/-- The value array the kernel reads is the value argument. -/
theorem V_main_v1 (m : (ℓ : Loc nD τ sig) → Buf (Elt Ideal) ℓ) (c : Dev nD) :
    (V (F := Ideal) m c main_v1 : S4x8x2048x64.Idx → EReal) = (m ((c : Thread nD τ).loc main_arg2) : S4x8x2048x64.Idx → EReal) := by
  have e : @Eq (S4x8x2048x64.Idx → EReal) (V (F := Ideal) m c main_v1)
      (truncf (F := Ideal) .bf16 (m ((c : Thread nD τ).loc main_arg2)) bitsLt_bf16_f32) := by
    dsimp only [Gen.V, Gen.hostOps0]; after_results; all_goals rfl
  exact e.trans (funext fun i => truncf_apply _ _ i)

/-- The mask array the kernel reads is the mask argument's bit, zero-extended to 32 bits. -/
theorem V_main_v2 (m : (ℓ : Loc nD τ sig) → Buf (Elt Ideal) ℓ) (c : Dev nD) (i : S4x8x2048x2048.Idx) :
    (V (F := Ideal) m c main_v2 : S4x8x2048x2048.Idx → BitVec 32) i
      = ((m ((c : Thread nD τ).loc main_arg3) : S4x8x2048x2048.Idx → BitVec 1) i).setWidth 32 := by
  have e : @Eq (S4x8x2048x2048.Idx → BitVec 32) (V (F := Ideal) m c main_v2)
      (extui 32 (m ((c : Thread nD τ).loc main_arg3) : IVec S4x8x2048x2048 1) natLt_1_32) := by
    dsimp only [Gen.V, Gen.hostOps0]; after_results; all_goals rfl
  exact (congrFun e i).trans (extui_apply _ _ i)

/-! ## The output blocks cover their arrays

The grid runs batch-major, then row tile, then head: the point of batch b, row tile qi and head h is the
(b · 64 + qi · 8 + h)-th. Every point writes its three output blocks back, and the block holding an array index
(b, h, row, col) is the one of the point (b, row / 256, h). -/

/-- The grid point of batch `b`, row tile `qi` and head `h`. -/
def point (b : Fin 4) (qi : Fin 8) (h : Fin 8) : Fin cfg0.N :=
  ⟨b.val * 64 + qi.val * 8 + h.val, by
    have := b.isLt; have := qi.isLt; have := h.isLt
    show b.val * 64 + qi.val * 8 + h.val < grid0.N
    rw [N_0]; omega⟩

/-- Its coordinates are `b`, `qi` and `h` (decided over the 256 triples). -/
theorem coords_point : ∀ (b : Fin 4) (qi : Fin 8) (h : Fin 8),
    (grid0.coords (point b qi h) 0).val = b.val ∧ (grid0.coords (point b qi h) 1).val = qi.val
      ∧ (grid0.coords (point b qi h) 2).val = h.val := by
  decide +kernel

theorem pb_point (b : Fin 4) (qi : Fin 8) (h : Fin 8) : pb (point b qi h) = b := Fin.ext (coords_point b qi h).1
theorem pq_point (b : Fin 4) (qi : Fin 8) (h : Fin 8) : pq (point b qi h) = qi := Fin.ext (coords_point b qi h).2.1
theorem ph_point (b : Fin 4) (qi : Fin 8) (h : Fin 8) : ph (point b qi h) = h := Fin.ext (coords_point b qi h).2.2

/-- An index of the context array is in point `t`'s block iff each coordinate is in the block's range on its axis. -/
theorem mem_blk5 (t : Fin cfg0.N) (i : S4x8x2048x64.Idx) :
    i ∈ ((cfg0.win 5).blk t).view.set ↔ ∀ a : Fin 4, win0_5.index t a * S1x1x256x64.size a ≤ (i a).val ∧ (i a).val < win0_5.index t a * S1x1x256x64.size a + S1x1x256x64.size a := by
  show i ∈ ((View.whole main_v3_0).slice (win0_5.rect t)).set ↔ _
  rw [View.set_slice_whole, Rect.mem_set_unit]
  exact Iff.rfl

/-- The same for the attention-weights array. -/
theorem mem_blk6 (t : Fin cfg0.N) (i : S4x8x2048x2048.Idx) :
    i ∈ ((cfg0.win 6).blk t).view.set ↔ ∀ a : Fin 4, win0_6.index t a * S1x1x256x2048.size a ≤ (i a).val ∧ (i a).val < win0_6.index t a * S1x1x256x2048.size a + S1x1x256x2048.size a := by
  show i ∈ ((View.whole main_v3_1).slice (win0_6.rect t)).set ↔ _
  rw [View.set_slice_whole, Rect.mem_set_unit]
  exact Iff.rfl

/-- The same for the scores array. -/
theorem mem_blk7 (t : Fin cfg0.N) (i : S4x8x2048x2048.Idx) :
    i ∈ ((cfg0.win 7).blk t).view.set ↔ ∀ a : Fin 4, win0_7.index t a * S1x1x256x2048.size a ≤ (i a).val ∧ (i a).val < win0_7.index t a * S1x1x256x2048.size a + S1x1x256x2048.size a := by
  show i ∈ ((View.whole main_v3_2).slice (win0_7.rect t)).set ↔ _
  rw [View.set_slice_whole, Rect.mem_set_unit]
  exact Iff.rfl

/-- Every index of the context array is in the block some point writes back. -/
theorem cover5 (i : S4x8x2048x64.Idx) : ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 64 := (i 3).isLt
  have hq : (i 2).val / 256 < 8 := by omega
  obtain ⟨c0, c1, c2⟩ := coords_point ⟨(i 0).val, hi0⟩ ⟨(i 2).val / 256, hq⟩ ⟨(i 1).val, hi1⟩
  obtain ⟨e0, e1, e2, e3⟩ := blockIndex5 (point ⟨(i 0).val, hi0⟩ ⟨(i 2).val / 256, hq⟩ ⟨(i 1).val, hi1⟩)
  have c0' : (grid0.coords (point ⟨(i 0).val, hi0⟩ ⟨(i 2).val / 256, hq⟩ ⟨(i 1).val, hi1⟩) 0).val = (i 0).val := c0
  have c1' : (grid0.coords (point ⟨(i 0).val, hi0⟩ ⟨(i 2).val / 256, hq⟩ ⟨(i 1).val, hi1⟩) 1).val = (i 2).val / 256 := c1
  have c2' : (grid0.coords (point ⟨(i 0).val, hi0⟩ ⟨(i 2).val / 256, hq⟩ ⟨(i 1).val, hi1⟩) 2).val = (i 1).val := c2
  refine ⟨point ⟨(i 0).val, hi0⟩ ⟨(i 2).val / 256, hq⟩ ⟨(i 1).val, hi1⟩, flush0_5 _, ?_⟩
  rw [mem_blk5]
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 1 ≤ (i 1).val ∧ (i 1).val < win0_5.index _ (1 : Fin 4) * 1 + 1; omega
  | ⟨2, _⟩ => show win0_5.index _ (2 : Fin 4) * 256 ≤ (i 2).val ∧ (i 2).val < win0_5.index _ (2 : Fin 4) * 256 + 256; omega
  | ⟨3, _⟩ => show win0_5.index _ (3 : Fin 4) * 64 ≤ (i 3).val ∧ (i 3).val < win0_5.index _ (3 : Fin 4) * 64 + 64; omega

/-- Every index of the attention-weights array is in the block some point writes back. -/
theorem cover6 (i : S4x8x2048x2048.Idx) : ∃ t : Fin cfg0.N, (cfg0.win 6).flush t = true ∧ i ∈ ((cfg0.win 6).blk t).view.set := by
  have hi0 : (i 0).val < 4 := (i 0).isLt
  have hi1 : (i 1).val < 8 := (i 1).isLt
  have hi2 : (i 2).val < 2048 := (i 2).isLt
  have hi3 : (i 3).val < 2048 := (i 3).isLt
  have hq : (i 2).val / 256 < 8 := by omega
  obtain ⟨c0, c1, c2⟩ := coords_point ⟨(i 0).val, hi0⟩ ⟨(i 2).val / 256, hq⟩ ⟨(i 1).val, hi1⟩
  obtain ⟨e0, e1, e2, e3⟩ := blockIndex6 (point ⟨(i 0).val, hi0⟩ ⟨(i 2).val / 256, hq⟩ ⟨(i 1).val, hi1⟩)
  have c0' : (grid0.coords (point ⟨(i 0).val, hi0⟩ ⟨(i 2).val / 256, hq⟩ ⟨(i 1).val, hi1⟩) 0).val = (i 0).val := c0
  have c1' : (grid0.coords (point ⟨(i 0).val, hi0⟩ ⟨(i 2).val / 256, hq⟩ ⟨(i 1).val, hi1⟩) 1).val = (i 2).val / 256 := c1
  have c2' : (grid0.coords (point ⟨(i 0).val, hi0⟩ ⟨(i 2).val / 256, hq⟩ ⟨(i 1).val, hi1⟩) 2).val = (i 1).val := c2
  refine ⟨point ⟨(i 0).val, hi0⟩ ⟨(i 2).val / 256, hq⟩ ⟨(i 1).val, hi1⟩, flush0_6 _, ?_⟩
  rw [mem_blk6]
  intro a
  match a with
  | ⟨0, _⟩ => show win0_6.index _ (0 : Fin 4) * 1 ≤ (i 0).val ∧ (i 0).val < win0_6.index _ (0 : Fin 4) * 1 + 1; omega
  | ⟨1, _⟩ => show win0_6.index _ (1 : Fin 4) * 1 ≤ (i 1).val ∧ (i 1).val < win0_6.index _ (1 : Fin 4) * 1 + 1; omega
  | ⟨2, _⟩ => show win0_6.index _ (2 : Fin 4) * 256 ≤ (i 2).val ∧ (i 2).val < win0_6.index _ (2 : Fin 4) * 256 + 256; omega
  | ⟨3, _⟩ => show win0_6.index _ (3 : Fin 4) * 2048 ≤ (i 3).val ∧ (i 3).val < win0_6.index _ (3 : Fin 4) * 2048 + 2048; omega

/-- Every index of the scores array is in the block some point writes back. -/
theorem cover7 (i : S4x8x2048x2048.Idx) : ∃ t : Fin cfg0.N, (cfg0.win 7).flush t = true ∧ i ∈ ((cfg0.win 7).blk t).view.set := by
  have hi0 : (i 0).val < 4 := (i 0).isLt
  have hi1 : (i 1).val < 8 := (i 1).isLt
  have hi2 : (i 2).val < 2048 := (i 2).isLt
  have hi3 : (i 3).val < 2048 := (i 3).isLt
  have hq : (i 2).val / 256 < 8 := by omega
  obtain ⟨c0, c1, c2⟩ := coords_point ⟨(i 0).val, hi0⟩ ⟨(i 2).val / 256, hq⟩ ⟨(i 1).val, hi1⟩
  obtain ⟨e0, e1, e2, e3⟩ := blockIndex7 (point ⟨(i 0).val, hi0⟩ ⟨(i 2).val / 256, hq⟩ ⟨(i 1).val, hi1⟩)
  have c0' : (grid0.coords (point ⟨(i 0).val, hi0⟩ ⟨(i 2).val / 256, hq⟩ ⟨(i 1).val, hi1⟩) 0).val = (i 0).val := c0
  have c1' : (grid0.coords (point ⟨(i 0).val, hi0⟩ ⟨(i 2).val / 256, hq⟩ ⟨(i 1).val, hi1⟩) 1).val = (i 2).val / 256 := c1
  have c2' : (grid0.coords (point ⟨(i 0).val, hi0⟩ ⟨(i 2).val / 256, hq⟩ ⟨(i 1).val, hi1⟩) 2).val = (i 1).val := c2
  refine ⟨point ⟨(i 0).val, hi0⟩ ⟨(i 2).val / 256, hq⟩ ⟨(i 1).val, hi1⟩, flush0_7 _, ?_⟩
  rw [mem_blk7]
  intro a
  match a with
  | ⟨0, _⟩ => show win0_7.index _ (0 : Fin 4) * 1 ≤ (i 0).val ∧ (i 0).val < win0_7.index _ (0 : Fin 4) * 1 + 1; omega
  | ⟨1, _⟩ => show win0_7.index _ (1 : Fin 4) * 1 ≤ (i 1).val ∧ (i 1).val < win0_7.index _ (1 : Fin 4) * 1 + 1; omega
  | ⟨2, _⟩ => show win0_7.index _ (2 : Fin 4) * 256 ≤ (i 2).val ∧ (i 2).val < win0_7.index _ (2 : Fin 4) * 256 + 256; omega
  | ⟨3, _⟩ => show win0_7.index _ (3 : Fin 4) * 2048 ≤ (i 3).val ∧ (i 3).val < win0_7.index _ (3 : Fin 4) * 2048 + 2048; omega

end Cert.KernelIdeal.Geometry

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.BlockOps.lean ====
/-
  The kernel body's operations on one block, read at coordinates, at the ideal values.

  A block is a tile of 256 query rows of one (batch, head): the body holds the tile of `q` as [256, 64], all of that
  head's `k` and `v` as [2048, 64], the tile's mask and bias as [256, 2048]. This module reads, entry by entry, the
  operations that are not pointwise: the casts that drop or add the two leading unit axes of a window's block, the
  product of the scaled `q` tile with `k` transposed (at (r, c): the sum over the head dimension `d` of left (r, d)
  times right (d, c)), the product of the weights with `v` (at (r, d): the sum over the key column `c`), a row's
  maximum (the running maximum from the accumulator's value) and a row's sum. Nothing here mentions the arrays the
  blocks were cut from.
-/
import proofs.«100100_j86955907875523_2_alg».proof.Proof.Gen.KernelIdeal.Skeleton
import proofs.«100100_j86955907875523_2_alg».proof.Proof.LibAxisSums
import proofs.«100100_j86955907875523_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockOps

open Cert.KernelIdeal Cert.KernelIdeal.Gen Idealize.ShloMosaic Idealize.ShloMosaic.ValueIdx

/-! ## Casts between a block [1, 1, a, b] and the matrix [a, b] -/

theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem cast_ab_11ab {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp [hu, hw])

/-! ## The two products -/

/-! The operand coordinates of the two contractions, axis by axis: on each side one axis is kept and one is summed. -/

theorem scoreDot_lhs0 (i : S256x2048.Idx) (q : dot_S256x64_S64x2048_S256x2048_1_0_0_1_n_n.contr.Idx) : (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide),
    dif_pos (show (0 : Fin S256x64.rank) ∈ dot_S256x64_S64x2048_S256x2048_1_0_0_1_n_n.lhsNonContracting by decide)]
  rfl
theorem scoreDot_lhs1 (i : S256x2048.Idx) (q : dot_S256x64_S64x2048_S256x2048_1_0_0_1_n_n.contr.Idx) : (dot_S256x64_S64x2048_S256x2048_1_0_0_1_n_n.lhsIdx i q 1).val = (q ⟨0, by decide⟩).val :=
  dot_S256x64_S64x2048_S256x2048_1_0_0_1_n_n.lhsIdx_val_of_single rfl i q
theorem scoreDot_rhs0 (i : S256x2048.Idx) (q : dot_S256x64_S64x2048_S256x2048_1_0_0_1_n_n.contr.Idx) : (dot_S256x64_S64x2048_S256x2048_1_0_0_1_n_n.rhsIdx i q 0).val = (q ⟨0, by decide⟩).val :=
  dot_S256x64_S64x2048_S256x2048_1_0_0_1_n_n.rhsIdx_val_of_single rfl i q
theorem scoreDot_rhs1 (i : S256x2048.Idx) (q : dot_S256x64_S64x2048_S256x2048_1_0_0_1_n_n.contr.Idx) : (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide),
    dif_pos (show (1 : Fin S64x2048.rank) ∈ dot_S256x64_S64x2048_S256x2048_1_0_0_1_n_n.rhsNonContracting by decide)]
  rfl

theorem valueDot_lhs0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem valueDot_lhs1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem valueDot_rhs0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem valueDot_rhs1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The scores' product: [256, 64] times [64, 2048] into zero, at (r, c), is the sum over the head dimension. -/
theorem scoreProduct_apply (lhs : FVec Ideal S256x64 .bf16) (rhs : FVec Ideal S64x2048 .bf16) (r : Fin 256) (c : Fin 2048) :
    matmul dot_S256x64_S64x2048_S256x2048_1_0_0_1_n_n none lhs rhs (constant (F := Ideal) S256x2048 .f32 0x00000000#32) (ix2 r c)
      = ∑ d : Fin 64, lhs (ix2 r d) * rhs (ix2 d c) := by
  simp only [matmul]
  rw [Ideal.matmul_constant_zero_apply, ← Equiv.sum_comp (contrEquiv1 dot_S256x64_S64x2048_S256x2048_1_0_0_1_n_n 64 rfl rfl).symm]
  refine Finset.sum_congr rfl fun d _ => ?_
  have hk := contrEquiv1_symm_val dot_S256x64_S64x2048_S256x2048_1_0_0_1_n_n 64 rfl rfl d
  have el : dot_S256x64_S64x2048_S256x2048_1_0_0_1_n_n.lhsIdx (ix2 r c) ((contrEquiv1 dot_S256x64_S64x2048_S256x2048_1_0_0_1_n_n 64 rfl rfl).symm d) = ix2 r d :=
    funext fun a => Fin.ext (by
      match a with
      | ⟨0, _⟩ => exact scoreDot_lhs0 _ _
      | ⟨1, _⟩ => exact (scoreDot_lhs1 _ _).trans hk)
  have er : dot_S256x64_S64x2048_S256x2048_1_0_0_1_n_n.rhsIdx (ix2 r c) ((contrEquiv1 dot_S256x64_S64x2048_S256x2048_1_0_0_1_n_n 64 rfl rfl).symm d) = ix2 d c :=
    funext fun a => Fin.ext (by
      match a with
      | ⟨0, _⟩ => exact (scoreDot_rhs0 _ _).trans hk
      | ⟨1, _⟩ => exact scoreDot_rhs1 _ _)
  rw [el, er]

/-- The weights' product with the values: [256, 2048] times [2048, 64] into zero, at (r, d), is the sum over the key
    column. -/
theorem valueProduct_apply (lhs : FVec Ideal S256x2048 .bf16) (rhs : FVec Ideal S2048x64 .bf16) (r : Fin 256) (d : Fin 64) :
    matmul dot_S256x2048_S2048x64_S256x64_1_0_0_1_n_n none lhs rhs (constant (F := Ideal) S256x64 .f32 0x00000000#32) (ix2 r d)
      = ∑ c : Fin 2048, lhs (ix2 r c) * rhs (ix2 c d) := by
  simp only [matmul]
  rw [Ideal.matmul_constant_zero_apply, ← Equiv.sum_comp (contrEquiv1 dot_S256x2048_S2048x64_S256x64_1_0_0_1_n_n 2048 rfl rfl).symm]
  refine Finset.sum_congr rfl fun c _ => ?_
  have hk := contrEquiv1_symm_val dot_S256x2048_S2048x64_S256x64_1_0_0_1_n_n 2048 rfl rfl c
  have el : dot_S256x2048_S2048x64_S256x64_1_0_0_1_n_n.lhsIdx (ix2 r d) ((contrEquiv1 dot_S256x2048_S2048x64_S256x64_1_0_0_1_n_n 2048 rfl rfl).symm c) = ix2 r c :=
    funext fun a => Fin.ext (by
      match a with
      | ⟨0, _⟩ => exact valueDot_lhs0 _ _
      | ⟨1, _⟩ => exact (valueDot_lhs1 _ _).trans hk)
  have er : dot_S256x2048_S2048x64_S256x64_1_0_0_1_n_n.rhsIdx (ix2 r d) ((contrEquiv1 dot_S256x2048_S2048x64_S256x64_1_0_0_1_n_n 2048 rfl rfl).symm c) = ix2 c d :=
    funext fun a => Fin.ext (by
      match a with
      | ⟨0, _⟩ => exact (valueDot_rhs0 _ _).trans hk
      | ⟨1, _⟩ => exact valueDot_rhs1 _ _)
  rw [el, er]

/-! ## A row's maximum and a row's sum -/

/-- A row's maximum: the running maximum over the columns, from the accumulator's value. -/
theorem rowMax_apply (s : FVec Ideal S256x2048 .f32) (r : Fin 256) :
    multiReduction .maximumf [1] S256 s 0xFF800000#32 reduces_S256x2048_S256 (.inl rfl) rfl (ix1 r)
      = (Finset.univ : Finset (Fin 2048)).fold max (Ideal.ofBits .f32 0xFF800000#32) (fun c => s (ix2 r c)) := by
  refine (Ideal.multiReduction_maximumf_single s 0xFF800000#32 reduces_S256x2048_S256 (.inl rfl) rfl (ix1 r)).trans ?_
  refine congrArg (fun f => Finset.fold max (Ideal.ofBits .f32 0xFF800000#32) f (Finset.univ : Finset (Fin 2048))) (funext fun c => ?_)
  exact congrArg s (funext fun a => Fin.ext (by match a with | ⟨0, _⟩ => rfl | ⟨1, _⟩ => rfl))

/-- A row's sum over the columns. -/
theorem rowSum_apply (p : FVec Ideal S256x2048 .f32) (r : Fin 256) :
    multiReduction .add [1] S256 p 0x00000000#32 reduces_S256x2048_S256 (.inl rfl) rfl (ix1 r) = ∑ c : Fin 2048, p (ix2 r c) :=
  Cert.Lib.AxisSums.multiReduction_add_last_apply p 0x00000000#32 reduces_S256x2048_S256 (.inl rfl) rfl r

end Cert.KernelIdeal.BlockOps

end
-- ==== Proof.BlockValue.lean ====
/-
  One block of the kernel against the specification.

  The block variables hold entries of the argument arrays: row `r` of the `q` tile is row `qi·256 + r` of `q[b, h]`,
  the `k` and `v` blocks are all of `k[b, h]` and `v[b, h]`, the bias tile is rows `qi·256 + r` of `e[b]`, and the mask
  tile holds the mask bits widened to 32-bit words. Under these hypotheses the body's values are the
  specification's at (b, h, qi·256 + r, ·):
    * the select's condition "word ≠ 0" is the mask bit;
    * the scaled `q` times `k` transposed is the product scaled afterwards — 1/8 is a finite nonnegative factor, and
      such a factor comes out of any sum of extended reals;
    * the row maximum and the row sum are the specification's, entry by entry;
    * the weights `p · (1/l)` are `p / l`, and `(∑ p·v) · (1/l)` is `∑ (p/l)·v`, because the row sum `l` is positive
      (the hypothesis `hpos`, which finite inputs give).
-/
import proofs.«100100_j86955907875523_2_alg».proof.Proof.Gen.KernelIdeal.Value
import proofs.«100100_j86955907875523_2_alg».proof.Proof.BlockOps
import proofs.«100100_j86955907875523_2_alg».proof.Proof.Spec

noncomputable section

namespace Cert.KernelIdeal.BlockValue

open Cert.KernelIdeal Cert.KernelIdeal.Gen Cert.KernelIdeal.BlockOps Idealize.ShloMosaic Idealize.ShloMosaic.ValueIdx
open Idealize.ShloMosaic.ColumnLayout Cert.Attention Cert.Lib.SoftmaxRow

/-- A bit widened to a word is not zero exactly when the bit is set. -/
theorem mask_bit : ∀ w : BitVec 1, IntOp.cmpi .ne (w.setWidth 32) 0#32 = w := by decide

/-! ## The body's values over arbitrary blocks -/

section Blocks

variable (P0 : Vec Ideal S1x1x256x64 .f32) (P1 : Vec Ideal S1x1x2048x64 .bf16) (P2 : Vec Ideal S1x256x2048 .f32)
  (P3 : Vec Ideal S1x1x256x2048 .i32) (P4 : Vec Ideal S1x1x2048x64 .bf16)

/-- The masked score of a block at (r, c). -/
theorem pay5_apply (r : Fin 256) (c : Fin 2048) :
    k0_pay5 P0 P1 P2 P3 (ix2 r c)
      = Scalar.select (IntOp.cmpi .ne (P3 (ix4 (0 : Fin 1) (0 : Fin 1) r c)) 0#32) (Ideal.ofBits .f32 0xCE6E6B28#32)
          ((∑ d : Fin 64, (P0 (ix4 (0 : Fin 1) (0 : Fin 1) r d) * Ideal.ofBits .f32 0x3E000000#32) * P1 (ix4 (0 : Fin 1) (0 : Fin 1) c d))
            + P2 (ix3 (0 : Fin 1) r c)) := by
  unfold k0_pay5
  show Scalar.select (IntOp.cmpi .ne (shapeCast S256x2048 P3 shapeCasts_S1x1x256x2048_S256x2048 (ix2 r c)) 0#32) (Ideal.ofBits .f32 0xCE6E6B28#32)
      (matmul dot_S256x64_S64x2048_S256x2048_1_0_0_1_n_n none
          (truncf .bf16 (mulf (shapeCast S256x64 P0 shapeCasts_S1x1x256x64_S256x64) (broadcast S256x64 (Scalar.ofBits (F := Ideal) .f32 0x3E000000#32))) bitsLt_bf16_f32)
          (transpose S64x2048 [1, 0] (shapeCast S2048x64 P1 shapeCasts_S1x1x2048x64_S2048x64) transposes_S2048x64_p1_0_S64x2048)
          (constant (F := Ideal) S256x2048 .f32 0x00000000#32) (ix2 r c)
        + shapeCast S256x2048 P2 shapeCasts_S1x256x2048_S256x2048 (ix2 r c)) = _
  have hterm : ∀ d : Fin 64,
      (truncf .bf16 (mulf (shapeCast S256x64 P0 shapeCasts_S1x1x256x64_S256x64) (broadcast S256x64 (Scalar.ofBits (F := Ideal) .f32 0x3E000000#32))) bitsLt_bf16_f32
          : FVec Ideal S256x64 .bf16) (ix2 r d)
        * transpose S64x2048 [1, 0] (shapeCast S2048x64 P1 shapeCasts_S1x1x2048x64_S2048x64) transposes_S2048x64_p1_0_S64x2048 (ix2 d c)
      = (P0 (ix4 (0 : Fin 1) (0 : Fin 1) r d) * Ideal.ofBits .f32 0x3E000000#32) * P1 (ix4 (0 : Fin 1) (0 : Fin 1) c d) := fun d => by
    show (shapeCast S256x64 P0 shapeCasts_S1x1x256x64_S256x64 (ix2 r d) * Ideal.ofBits .f32 0x3E000000#32)
      * transpose S64x2048 [1, 0] (shapeCast S2048x64 P1 shapeCasts_S1x1x2048x64_S2048x64) transposes_S2048x64_p1_0_S64x2048 (ix2 d c) = _
    rw [cast_11ab_ab, transpose_ix2_apply, cast_11ab_ab]
  rw [scoreProduct_apply, cast_11ab_ab, shapeCast_1ab_ab_apply, Finset.sum_congr rfl fun d _ => hterm d]

end Blocks

/-! ## The block of point (b, qi, h) -/

section AtPoint

variable (q k v : SQ.Idx → EReal) (msk : SS.Idx → BitVec 1) (e : SE.Idx → EReal) (b : Fin 4) (h : Fin 8) (qi : Fin 8)
variable (P0 : Vec Ideal S1x1x256x64 .f32) (P1 : Vec Ideal S1x1x2048x64 .bf16) (P2 : Vec Ideal S1x256x2048 .f32)
  (P3 : Vec Ideal S1x1x256x2048 .i32) (P4 : Vec Ideal S1x1x2048x64 .bf16)
variable (hq : ∀ (r : Fin 256) (d : Fin 64), P0 (ix4 (0 : Fin 1) (0 : Fin 1) r d) = q (ix4 b h (grow qi r) d))
  (hk : ∀ (c : Fin 2048) (d : Fin 64), P1 (ix4 (0 : Fin 1) (0 : Fin 1) c d) = k (ix4 b h c d))
  (he : ∀ (r : Fin 256) (c : Fin 2048), P2 (ix3 (0 : Fin 1) r c) = e (ix3 b (grow qi r) c))
  (hm : ∀ (r : Fin 256) (c : Fin 2048), P3 (ix4 (0 : Fin 1) (0 : Fin 1) r c) = (msk (ix4 b h (grow qi r) c)).setWidth 32)
  (hv : ∀ (c : Fin 2048) (d : Fin 64), P4 (ix4 (0 : Fin 1) (0 : Fin 1) c d) = v (ix4 b h c d))
  (hpos : ∀ r : Fin 2048, 0 < rowsum q k msk e b h r)

include hq hk he hm in
/-- The block's masked scores are the specification's. -/
theorem score_at (r : Fin 256) (c : Fin 2048) :
    k0_pay5 P0 P1 P2 P3 (ix2 r c) = score q k msk e b h (grow qi r) c := by
  have hsum : (∑ d : Fin 64, (P0 (ix4 (0 : Fin 1) (0 : Fin 1) r d) * Ideal.ofBits .f32 0x3E000000#32) * P1 (ix4 (0 : Fin 1) (0 : Fin 1) c d))
      = (∑ d : Fin 64, q (ix4 b h (grow qi r) d) * k (ix4 b h c d)) * Ideal.ofBits .f32 0x3E000000#32 := by
    refine Eq.trans (Finset.sum_congr rfl fun d _ => by rw [hq, hk]) ?_
    exact scaled_dot (fun d : Fin 64 => q (ix4 b h (grow qi r) d)) (fun d : Fin 64 => k (ix4 b h c d)) eighth_nonneg eighth_ne_top
  rw [pay5_apply, hm, mask_bit, he, hsum]
  rfl

include hq hk he hm in
/-- The block's row maxima are the specification's. -/
theorem rowmax_at (r : Fin 256) :
    multiReduction .maximumf [1] S256 (k0_pay5 P0 P1 P2 P3) 0xFF800000#32 reduces_S256x2048_S256 (.inl rfl) rfl (ix1 r)
      = rowmax q k msk e b h (grow qi r) := by
  refine (rowMax_apply _ r).trans ?_
  unfold rowmax
  exact congrArg (fun f => Finset.fold max (Ideal.ofBits .f32 0xFF800000#32) f (Finset.univ : Finset (Fin 2048)))
    (funext fun c => score_at q k msk e b h qi P0 P1 P2 P3 hq hk he hm r c)

include hq hk he hm in
/-- The block's exponentials are the specification's. -/
theorem expo_at (r : Fin 256) (c : Fin 2048) :
    k0_pay7 P0 P1 P2 P3 (ix2 r c) = expo q k msk e b h (grow qi r) c := by
  unfold k0_pay7
  show Ideal.exp (k0_pay5 P0 P1 P2 P3 (ix2 r c)
      - broadcastTo S256x2048 (shapeCast S256x1 (multiReduction .maximumf [1] S256 (k0_pay5 P0 P1 P2 P3) 0xFF800000#32
          reduces_S256x2048_S256 (.inl rfl) rfl) shapeCasts_S256_S256x1) broadcasts_S256x1_S256x2048 (ix2 r c)) = _
  rw [broadcastTo_a1_ab_apply, shapeCast_a_a1_apply,
    rowmax_at q k msk e b h qi P0 P1 P2 P3 hq hk he hm, score_at q k msk e b h qi P0 P1 P2 P3 hq hk he hm]
  rfl

include hq hk he hm in
/-- The block's row sums are the specification's. -/
theorem rowsum_at (r : Fin 256) :
    multiReduction .add [1] S256 (k0_pay7 P0 P1 P2 P3) 0x00000000#32 reduces_S256x2048_S256 (.inl rfl) rfl (ix1 r)
      = rowsum q k msk e b h (grow qi r) := by
  refine (rowSum_apply _ r).trans ?_
  unfold rowsum
  exact Finset.sum_congr rfl fun c _ => expo_at q k msk e b h qi P0 P1 P2 P3 hq hk he hm r c

include hq hk he hm in
/-- The block's reciprocal column: one over the row sum. -/
theorem recip_at (r : Fin 256) (u : Fin 1) :
    k0_pay1 (k0_pay7 P0 P1 P2 P3) (ix2 r u) = Ideal.div 1 (rowsum q k msk e b h (grow qi r)) := by
  unfold k0_pay1
  show Ideal.div (Ideal.ofBits .f32 0x3F800000#32)
      (shapeCast S256x1 (multiReduction .add [1] S256 (k0_pay7 P0 P1 P2 P3) 0x00000000#32 reduces_S256x2048_S256 (.inl rfl) rfl)
        shapeCasts_S256_S256x1 (ix2 r u)) = _
  rw [shapeCast_a_a1_apply, rowsum_at q k msk e b h qi P0 P1 P2 P3 hq hk he hm, ofBits_one]

include hq hk he hm in
/-- The scores block, as the generated module reads it, is the specification's scores. -/
theorem scoresBlock_at (r : Fin 256) (c : Fin 2048) :
    Cert.KernelIdeal.Value.E7 P0 P1 P2 P3 (ix4 (0 : Fin 1) (0 : Fin 1) r c) = score q k msk e b h (grow qi r) c := by
  have e0 : Cert.KernelIdeal.Value.ix7_0 (ix4 (0 : Fin 1) (0 : Fin 1) r c) = ix2 r c := funext fun a => Fin.ext (by
    match a with | ⟨0, _⟩ => rfl | ⟨1, _⟩ => rfl)
  show k0_pay5 P0 P1 P2 P3 (Cert.KernelIdeal.Value.ix7_0 (ix4 (0 : Fin 1) (0 : Fin 1) r c)) = _
  rw [e0]
  exact score_at q k msk e b h qi P0 P1 P2 P3 hq hk he hm r c

include hq hk he hm hpos in
/-- The weights block, as the generated module reads it, is the specification's weights. -/
theorem attnBlock_at (r : Fin 256) (c : Fin 2048) :
    Cert.KernelIdeal.Value.E6 P0 P1 P2 P3 (ix4 (0 : Fin 1) (0 : Fin 1) r c) = attn q k msk e b h (grow qi r) c := by
  have e0 : Cert.KernelIdeal.Value.ix6_0 (ix4 (0 : Fin 1) (0 : Fin 1) r c) = ix2 r c := funext fun a => Fin.ext (by
    match a with | ⟨0, _⟩ => rfl | ⟨1, _⟩ => rfl)
  have e1 : Cert.KernelIdeal.Value.ix6_1 (ix4 (0 : Fin 1) (0 : Fin 1) r c) = ix1 r := funext fun a => Fin.ext (by
    match a with | ⟨0, _⟩ => rfl)
  have e2 : Cert.KernelIdeal.Value.ix6_2 (ix4 (0 : Fin 1) (0 : Fin 1) r c) = ix1 r := funext fun a => Fin.ext (by
    match a with | ⟨0, _⟩ => rfl)
  show Ideal.exp (k0_pay5 P0 P1 P2 P3 (Cert.KernelIdeal.Value.ix6_0 (ix4 (0 : Fin 1) (0 : Fin 1) r c))
        - multiReduction .maximumf [1] S256 (k0_pay5 P0 P1 P2 P3) 0xFF800000#32 reduces_S256x2048_S256 (.inl rfl) rfl
            (Cert.KernelIdeal.Value.ix6_1 (ix4 (0 : Fin 1) (0 : Fin 1) r c)))
      * Ideal.div (Ideal.ofBits .f32 0x3F800000#32)
          (multiReduction .add [1] S256 (k0_pay7 P0 P1 P2 P3) 0x00000000#32 reduces_S256x2048_S256 (.inl rfl) rfl
            (Cert.KernelIdeal.Value.ix6_2 (ix4 (0 : Fin 1) (0 : Fin 1) r c))) = _
  rw [e0, e1, e2, score_at q k msk e b h qi P0 P1 P2 P3 hq hk he hm, rowmax_at q k msk e b h qi P0 P1 P2 P3 hq hk he hm,
    rowsum_at q k msk e b h qi P0 P1 P2 P3 hq hk he hm, ofBits_one]
  exact mul_one_div (hpos (grow qi r)).ne' _

include hq hk he hm hv hpos in
/-- The context block is the specification's context. -/
theorem ctxBlock_at (r : Fin 256) (d : Fin 64) :
    k0_pay3 (k0_pay4 P4) (k0_pay7 P0 P1 P2 P3) (ix4 (0 : Fin 1) (0 : Fin 1) r d) = ctx q k v msk e b h (grow qi r) d := by
  unfold k0_pay3
  show shapeCast S1x1x256x64 (mulf (matmul dot_S256x2048_S2048x64_S256x64_1_0_0_1_n_n none
        (truncf .bf16 (k0_pay7 P0 P1 P2 P3) bitsLt_bf16_f32) (k0_pay4 P4) (constant (F := Ideal) S256x64 .f32 0x00000000#32))
      (broadcastTo S256x64 (k0_pay1 (k0_pay7 P0 P1 P2 P3)) broadcasts_S256x1_S256x64)) shapeCasts_S256x64_S1x1x256x64
      (ix4 (0 : Fin 1) (0 : Fin 1) r d) = _
  rw [cast_ab_11ab]
  show matmul dot_S256x2048_S2048x64_S256x64_1_0_0_1_n_n none
        (truncf .bf16 (k0_pay7 P0 P1 P2 P3) bitsLt_bf16_f32) (k0_pay4 P4) (constant (F := Ideal) S256x64 .f32 0x00000000#32) (ix2 r d)
      * broadcastTo S256x64 (k0_pay1 (k0_pay7 P0 P1 P2 P3)) broadcasts_S256x1_S256x64 (ix2 r d) = _
  rw [valueProduct_apply, broadcastTo_a1_ab_apply, recip_at q k msk e b h qi P0 P1 P2 P3 hq hk he hm]
  have hterm : ∀ c : Fin 2048, (truncf .bf16 (k0_pay7 P0 P1 P2 P3) bitsLt_bf16_f32 : FVec Ideal S256x2048 .bf16) (ix2 r c) * k0_pay4 P4 (ix2 c d)
      = expo q k msk e b h (grow qi r) c * v (ix4 b h c d) := fun c => by
    show k0_pay7 P0 P1 P2 P3 (ix2 r c) * shapeCast S2048x64 P4 shapeCasts_S1x1x2048x64_S2048x64 (ix2 c d) = _
    rw [expo_at q k msk e b h qi P0 P1 P2 P3 hq hk he hm, cast_11ab_ab, hv]
  rw [Finset.sum_congr rfl fun c _ => hterm c]
  exact sum_mul_one_div (hpos (grow qi r)) (fun c => expo q k msk e b h (grow qi r) c) (fun c => v (ix4 b h c d))

end AtPoint

end Cert.KernelIdeal.BlockValue

end
-- ==== Proof.KernelValue.lean ====
/-
  The kernel's three result arrays are the specification's.

  At grid point (b, qi, h) the body is handed: the `qi`-th tile of 256 rows of `q[b, h]`; all of `k[b, h]` and `v[b, h]`
  (each copied once before the call, unchanged at the ideal values); the same tile of the mask, widened before the call
  from bits to 32-bit words; the same tile of rows of the bias `e[b]`, shared by the eight heads. What it writes back
  to each output is, entry by entry, the specification at the array index the block entry sits at (the block
  lemmas), so each output's block at that point is the block of one whole-array function. The 256 blocks of an output
  cover it, so after the run each output array is that function.
-/
import proofs.«100100_j86955907875523_2_alg».proof.Proof.Geometry
import proofs.«100100_j86955907875523_2_alg».proof.Proof.BlockValue

set_option maxRecDepth 16384

noncomputable section

namespace Cert.KernelIdeal.KernelValue

open Cert.KernelIdeal Cert.KernelIdeal.Gen Cert.KernelIdeal.Geometry Cert.KernelIdeal.BlockValue
open Idealize.ShloMosaic Idealize.ShloMosaic.TcCoe Idealize.ShloMosaic.ValueIdx Idealize.SL.Sem Cert.Attention
open Idealize.ShloMosaic.Pipeline (Dat)

variable (m : (ℓ : Loc nD τ sig) → Buf (Elt Ideal) ℓ) (ρ : Dev nD → PrngReg) (c : Dev nD)

theorem origin4 : (![0, 0, 0, 0] : Fin 4 → Nat) = fun _ => 0 := funext fun a => by fin_cases a <;> rfl
theorem origin3 : (![0, 0, 0] : Fin 3 → Nat) = fun _ => 0 := funext fun a => by fin_cases a <;> rfl

/-- The argument arrays on core `c`, as launched. -/
abbrev argQ : SQ.Idx → EReal := m ((c : Thread nD τ).loc main_arg0)
abbrev argK : SQ.Idx → EReal := m ((c : Thread nD τ).loc main_arg1)
abbrev argV : SQ.Idx → EReal := m ((c : Thread nD τ).loc main_arg2)
abbrev argM : SS.Idx → BitVec 1 := m ((c : Thread nD τ).loc main_arg3)
abbrev argE : SE.Idx → EReal := m ((c : Thread nD τ).loc main_arg4)

/-! ## What the blocks at a point hold -/

theorem blkQ (t : Fin cfg0.N) (r : Fin 256) (d : Fin 64) :
    View.ld (iblk m c 0 t) r0_0 (ix4 (0 : Fin 1) (0 : Fin 1) r d) = argQ m c (ix4 (pb t) (ph t) (grow (pq t) r) d) := by
  refine (congrFun (View.ld_unit_zero (Val := Elt Ideal) (S := S1x1x256x64) origin4 _ (iblk m c 0 t)) _).trans ?_
  show V m c main_arg0 (((cfg0.win 0).blk t).view.emb (ix4 (0 : Fin 1) (0 : Fin 1) r d)) = _
  rw [emb0, V_main_arg0]

theorem blkK (t : Fin cfg0.N) (cc : Fin 2048) (d : Fin 64) :
    View.ld (iblk m c 1 t) r0_1 (ix4 (0 : Fin 1) (0 : Fin 1) cc d) = argK m c (ix4 (pb t) (ph t) cc d) := by
  refine (congrFun (View.ld_unit_zero (Val := Elt Ideal) (S := S1x1x2048x64) origin4 _ (iblk m c 1 t)) _).trans ?_
  show V m c main_v0 (((cfg0.win 1).blk t).view.emb (ix4 (0 : Fin 1) (0 : Fin 1) cc d)) = _
  rw [emb1]
  exact congrFun (V_main_v0 m c) _

theorem blkV (t : Fin cfg0.N) (cc : Fin 2048) (d : Fin 64) :
    View.ld (iblk m c 2 t) r0_1 (ix4 (0 : Fin 1) (0 : Fin 1) cc d) = argV m c (ix4 (pb t) (ph t) cc d) := by
  refine (congrFun (View.ld_unit_zero (Val := Elt Ideal) (S := S1x1x2048x64) origin4 _ (iblk m c 2 t)) _).trans ?_
  show V m c main_v1 (((cfg0.win 2).blk t).view.emb (ix4 (0 : Fin 1) (0 : Fin 1) cc d)) = _
  rw [emb2]
  exact congrFun (V_main_v1 m c) _

theorem blkM (t : Fin cfg0.N) (r : Fin 256) (cc : Fin 2048) :
    View.ld (iblk m c 3 t) r0_3 (ix4 (0 : Fin 1) (0 : Fin 1) r cc)
      = (argM m c (ix4 (pb t) (ph t) (grow (pq t) r) cc)).setWidth 32 := by
  refine (congrFun (View.ld_unit_zero (Val := Elt Ideal) (S := S1x1x256x2048) origin4 _ (iblk m c 3 t)) _).trans ?_
  show V m c main_v2 (((cfg0.win 3).blk t).view.emb (ix4 (0 : Fin 1) (0 : Fin 1) r cc)) = _
  rw [emb3]
  exact V_main_v2 m c _

theorem blkE (t : Fin cfg0.N) (r : Fin 256) (cc : Fin 2048) :
    View.ld (iblk m c 4 t) r0_2 (ix3 (0 : Fin 1) r cc) = argE m c (ix3 (pb t) (grow (pq t) r) cc) := by
  refine (congrFun (View.ld_unit_zero (Val := Elt Ideal) (S := S1x256x2048) origin3 _ (iblk m c 4 t)) _).trans ?_
  show V m c main_arg4 (((cfg0.win 4).blk t).view.emb (ix3 (0 : Fin 1) r cc)) = _
  rw [emb4, V_main_arg4]

/-! ## What a point writes back, entry by entry -/

/-- The scores block a point leaves is the specification's scores where the block sits. -/
theorem scoresBlk (t : Fin cfg0.N) (y : S1x1x256x2048.Idx) :
    out0_7 (iblk m c 0 t) (iblk m c 1 t) (iblk m c 2 t) (iblk m c 3 t) (iblk m c 4 t) y
      = scoresArr (argQ m c) (argK m c) (argM m c) (argE m c) (((cfg0.win 7).blk t).view.emb y) := by
  unfold out0_7
  rw [Cert.KernelIdeal.Value.canon7_eq]
  obtain ⟨u, w, r, cc, rfl⟩ : ∃ (u w : Fin 1) (r : Fin 256) (cc : Fin 2048), y = ix4 u w r cc :=
    ⟨y 0, y 1, y 2, y 3, eq_ix4 y⟩
  obtain rfl : u = 0 := Subsingleton.elim _ _
  obtain rfl : w = 0 := Subsingleton.elim _ _
  rw [emb7]
  exact scoresBlock_at (argQ m c) (argK m c) (argM m c) (argE m c) (pb t) (ph t) (pq t)
    (View.ld (iblk m c 0 t) r0_0) (View.ld (iblk m c 1 t) r0_1) (View.ld (iblk m c 4 t) r0_2) (View.ld (iblk m c 3 t) r0_3)
    (blkQ m c t) (blkK m c t) (blkE m c t) (blkM m c t) r cc

variable (hpos : ∀ (b : Fin 4) (h : Fin 8) (r : Fin 2048), 0 < rowsum (argQ m c) (argK m c) (argM m c) (argE m c) b h r)

include hpos in
/-- The weights block a point leaves is the specification's weights where the block sits. -/
theorem attnBlk (t : Fin cfg0.N) (y : S1x1x256x2048.Idx) :
    out0_6 (iblk m c 0 t) (iblk m c 1 t) (iblk m c 2 t) (iblk m c 3 t) (iblk m c 4 t) y
      = attnArr (argQ m c) (argK m c) (argM m c) (argE m c) (((cfg0.win 6).blk t).view.emb y) := by
  unfold out0_6
  rw [Cert.KernelIdeal.Value.canon6_eq]
  obtain ⟨u, w, r, cc, rfl⟩ : ∃ (u w : Fin 1) (r : Fin 256) (cc : Fin 2048), y = ix4 u w r cc :=
    ⟨y 0, y 1, y 2, y 3, eq_ix4 y⟩
  obtain rfl : u = 0 := Subsingleton.elim _ _
  obtain rfl : w = 0 := Subsingleton.elim _ _
  rw [emb6]
  exact attnBlock_at (argQ m c) (argK m c) (argM m c) (argE m c) (pb t) (ph t) (pq t)
    (View.ld (iblk m c 0 t) r0_0) (View.ld (iblk m c 1 t) r0_1) (View.ld (iblk m c 4 t) r0_2) (View.ld (iblk m c 3 t) r0_3)
    (blkQ m c t) (blkK m c t) (blkE m c t) (blkM m c t) (hpos (pb t) (ph t)) r cc

include hpos in
/-- The context block a point leaves is the specification's context where the block sits. -/
theorem ctxBlk (t : Fin cfg0.N) (y : S1x1x256x64.Idx) :
    out0_5 (iblk m c 0 t) (iblk m c 1 t) (iblk m c 2 t) (iblk m c 3 t) (iblk m c 4 t) y
      = ctxArr (argQ m c) (argK m c) (argV m c) (argM m c) (argE m c) (((cfg0.win 5).blk t).view.emb y) := by
  unfold out0_5
  rw [View.canon_unit_zero origin4]
  obtain ⟨u, w, r, d, rfl⟩ : ∃ (u w : Fin 1) (r : Fin 256) (d : Fin 64), y = ix4 u w r d :=
    ⟨y 0, y 1, y 2, y 3, eq_ix4 y⟩
  obtain rfl : u = 0 := Subsingleton.elim _ _
  obtain rfl : w = 0 := Subsingleton.elim _ _
  rw [emb5]
  exact ctxBlock_at (argQ m c) (argK m c) (argV m c) (argM m c) (argE m c) (pb t) (ph t) (pq t)
    (View.ld (iblk m c 0 t) r0_0) (View.ld (iblk m c 1 t) r0_1) (View.ld (iblk m c 4 t) r0_2) (View.ld (iblk m c 3 t) r0_3)
    (View.ld (iblk m c 2 t) r0_1)
    (blkQ m c t) (blkK m c t) (blkE m c t) (blkM m c t) (blkV m c t) (hpos (pb t) (ph t)) r d

/-! ## Blocks of one function, and the arrays after the run -/

theorem flushedScores (t : Fin cfg0.N) :
    (dats m 0 c).flushed 7 t = ((cfg0.win 7).blk t).view.read (Elt Ideal) (scoresArr (argQ m c) (argK m c) (argM m c) (argE m c)) := by
  rw [Cert.KernelIdeal.Value.flushed7]
  funext y
  exact scoresBlk m c t y

include hpos in
theorem flushedAttn (t : Fin cfg0.N) :
    (dats m 0 c).flushed 6 t = ((cfg0.win 6).blk t).view.read (Elt Ideal) (attnArr (argQ m c) (argK m c) (argM m c) (argE m c)) := by
  rw [Cert.KernelIdeal.Value.flushed6]
  funext y
  exact attnBlk m c hpos t y

include hpos in
theorem flushedCtx (t : Fin cfg0.N) :
    (dats m 0 c).flushed 5 t = ((cfg0.win 5).blk t).view.read (Elt Ideal) (ctxArr (argQ m c) (argK m c) (argV m c) (argM m c) (argE m c)) := by
  rw [Cert.KernelIdeal.Value.flushed5]
  funext y
  exact ctxBlk m c hpos t y

theorem finalScores : (dats m 0 c).arrAt 7 cfg0.N = scoresArr (argQ m c) (argK m c) (argM m c) (argE m c) :=
  (dats m 0 c).arrAt_eq_of_cover 7 _ (fun t _ => flushedScores m c t) cover7

include hpos in
theorem finalAttn : (dats m 0 c).arrAt 6 cfg0.N = attnArr (argQ m c) (argK m c) (argM m c) (argE m c) :=
  (dats m 0 c).arrAt_eq_of_cover 6 _ (fun t _ => flushedAttn m c hpos t) cover6

include hpos in
theorem finalCtx : (dats m 0 c).arrAt 5 cfg0.N = ctxArr (argQ m c) (argK m c) (argV m c) (argM m c) (argE m c) :=
  (dats m 0 c).arrAt_eq_of_cover 5 _ (fun t _ => flushedCtx m c hpos t) cover5

end Cert.KernelIdeal.KernelValue

end
-- ==== Proof.lean ====
/-
  The claim: the attention kernel and its reference compute the same three arrays on the extended reals.

  Both programs return, for query rows `r` and key columns `c` of each (batch, head): the masked scores
  `(q·kᵀ)/8 + bias` with `-1e9` where the mask is set; the row softmax of the scores; and the softmax-weighted sum of
  the value rows. The kernel scales `q` by 1/8 before the product where the reference scales the product, multiplies
  by the reciprocal of a row's sum where the reference divides, and normalises the weighted sum after summing where the
  reference normalises the weights first. Scaling by the finite nonnegative 1/8 commutes with a sum of extended reals;
  the other two agree because each row sum is positive, which holds when `q`, `k` and the bias are finite (then every
  score is a real number, and `exp` of a real is positive). That is the one use of the precondition; `v` may be
  anything. The three frames are the generated ones (the reference's is its generated run with the results dropped),
  and the idealization rewrote nothing, so there is nothing to preserve.
-/
import proofs.«100100_j86955907875523_2_alg».proof.Defs
import proofs.«100100_j86955907875523_2_alg».proof.Proof.Gen.Kernel
import proofs.«100100_j86955907875523_2_alg».proof.Proof.Gen.Kernel.Skeleton
import proofs.«100100_j86955907875523_2_alg».proof.Proof.Gen.Kernel.Launch
import proofs.«100100_j86955907875523_2_alg».proof.Proof.Gen.Kernel.Points
import proofs.«100100_j86955907875523_2_alg».proof.Proof.Gen.Kernel.Frame
import proofs.«100100_j86955907875523_2_alg».proof.Proof.Gen.KernelIdeal
import proofs.«100100_j86955907875523_2_alg».proof.Proof.Gen.KernelIdeal.Skeleton
import proofs.«100100_j86955907875523_2_alg».proof.Proof.Gen.KernelIdeal.Launch
import proofs.«100100_j86955907875523_2_alg».proof.Proof.Gen.KernelIdeal.Points
import proofs.«100100_j86955907875523_2_alg».proof.Proof.Gen.KernelIdeal.Frame
import proofs.«100100_j86955907875523_2_alg».proof.Proof.Gen.ReferenceIdeal
import proofs.«100100_j86955907875523_2_alg».proof.Proof.Gen.Pre_finite_inputs
import proofs.«100100_j86955907875523_2_alg».proof.Proof.Gen.KernelIdeal.Value
import proofs.«100100_j86955907875523_2_alg».proof.Proof.Gen.ReferenceIdeal.Run
import proofs.«100100_j86955907875523_2_alg».proof.Proof.Gen.ReferenceIdeal.Read
import proofs.«100100_j86955907875523_2_alg».proof.Proof.Finite
import proofs.«100100_j86955907875523_2_alg».proof.Proof.RefValue
import proofs.«100100_j86955907875523_2_alg».proof.Proof.KernelValue
import Idealize.ShloMosaic.Adequacy
import Idealize.ShloMosaic.Init

noncomputable section

namespace Cert.Proof

open Idealize.ShloMosaic Idealize.ShloMosaic.TcCoe Idealize.SL.Sem Cert.Attention

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Finite `q`, `k` and bias make every row sum of the exponentials positive, on every core. -/
theorem rowsum_pos_of_pre (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 4) (h : Fin 8) (r : Fin 2048) :
    0 < rowsum (Cert.KernelIdeal.KernelValue.argQ m c) (Cert.KernelIdeal.KernelValue.argK m c)
      (Cert.KernelIdeal.KernelValue.argM m c) (Cert.KernelIdeal.KernelValue.argE m c) b h r := by
  obtain ⟨hq, hk, he⟩ := Cert.Attention.real_of_pre _ _ _ _ _ (hpre c)
  exact rowsum_pos _ hq hk he b h r

/-- From memories that agree on the arguments both programs end with the specification's three arrays. -/
theorem algebraic : Cert.algebraic_KernelIdeal_ReferenceIdeal := by
  intro m ρ m' ρ' hpre hagree
  refine ⟨fun c => ctxArr (Cert.KernelIdeal.KernelValue.argQ m c) (Cert.KernelIdeal.KernelValue.argK m c)
        (Cert.KernelIdeal.KernelValue.argV m c) (Cert.KernelIdeal.KernelValue.argM m c) (Cert.KernelIdeal.KernelValue.argE m c),
      fun c => attnArr (Cert.KernelIdeal.KernelValue.argQ m c) (Cert.KernelIdeal.KernelValue.argK m c)
        (Cert.KernelIdeal.KernelValue.argM m c) (Cert.KernelIdeal.KernelValue.argE m c),
      fun c => scoresArr (Cert.KernelIdeal.KernelValue.argQ m c) (Cert.KernelIdeal.KernelValue.argK m c)
        (Cert.KernelIdeal.KernelValue.argM m c) (Cert.KernelIdeal.KernelValue.argE m c), ?_, ?_⟩
  · exact (θ_run Cert.KernelIdeal.defs _ _).mono (fun r h c =>
      ⟨(h c).1.trans (Cert.KernelIdeal.KernelValue.finalCtx m c (rowsum_pos_of_pre m hpre c)),
        (h c).2.1.trans (Cert.KernelIdeal.KernelValue.finalAttn m c (rowsum_pos_of_pre m hpre c)),
        (h c).2.2.1.trans (Cert.KernelIdeal.KernelValue.finalScores m c),
        (h c).2.2.2⟩) (Cert.KernelIdeal.Value.run_blocks m ρ)
  · refine (θ_run Cert.ReferenceIdeal.defs _ _).mono (fun r h c => ⟨?_, ?_, ?_, (h c).2.2.2⟩)
      (Cert.ReferenceIdeal.Value.run (F := Ideal) m' ρ')
    · refine (h c).1.trans ((Cert.ReferenceIdeal.Read.val_main_v18_eq _ _ _ _ _).trans
        ((Cert.ReferenceIdeal.RefValue.ctx_eq _ _ _ _ _).trans ?_))
      rw [(hagree c).1, (hagree c).2.1, (hagree c).2.2.1, (hagree c).2.2.2.1, (hagree c).2.2.2.2]
    · refine (h c).2.1.trans ((Cert.ReferenceIdeal.Read.val_main_v17_eq _ _ _ _).trans
        ((Cert.ReferenceIdeal.RefValue.attn_eq _ _ _ _).trans ?_))
      rw [(hagree c).1, (hagree c).2.1, (hagree c).2.2.2.1, (hagree c).2.2.2.2]
    · refine (h c).2.2.1.trans ((Cert.ReferenceIdeal.Read.val_main_v6_eq _ _ _ _).trans
        ((Cert.ReferenceIdeal.RefValue.scores_eq _ _ _ _).trans ?_))
      rw [(hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
